-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S160x128 : Shape := ⟨2, ![160, 128]⟩
abbrev S_ : Shape := ⟨0, ![]⟩
abbrev S10x118 : Shape := ⟨2, ![10, 118]⟩
abbrev S1x118 : Shape := ⟨2, ![1, 118]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S160x128 : S_.BroadcastsInDim S160x128 (![] : Fin 0 → Fin S160x128.rank)
  reducesTo_S160x128_S_d0_1 : S160x128.ReducesTo [0, 1] S_
  slices_S160x128_S10x118_0_10 : S160x128.Slices ![0, 10] S10x118
  bcast_S_S10x118 : S_.BroadcastsInDim S10x118 (![] : Fin 0 → Fin S10x118.rank)
  reducesTo_S10x118_S_d0_1 : S10x118.ReducesTo [0, 1] S_
  slices_S160x128_S1x118_16_10 : S160x128.Slices ![16, 10] S1x118
  bcast_S_S1x118 : S_.BroadcastsInDim S1x118 (![] : Fin 0 → Fin S1x118.rank)
  reducesTo_S1x118_S_d0_1 : S1x118.ReducesTo [0, 1] S_

variable [Facts]

def fn_part1 {F : FTy → Type} [FloatOps F] (main_v13 : IVec S_ 1) (main_v16 : IVec S1x118 1) : IVec S_ 1 :=
  let main_c_5 : IVec S_ 1 := constantI S_ 1 1#1
  let main_v17 : IVec S_ 1 := (fun x v => Host.reduce IntOp.andi x v reducesTo_S1x118_S_d0_1 h_S_) main_v16 main_c_5
  let main_v18 : IVec S_ 1 := andi main_v13 main_v17
  main_v18

def fn {F : FTy → Type} [FloatOps F] (main_arg0 : FVec F S1048576x10 .f32) (main_arg1 : FVec F S160x128 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S160x128 .f32 := Host.absf main_arg1
  let main_cst_0 : FVec F S_ .f32 := constant S_ .f32 0x7F800000#32
  let main_v5 : FVec F S160x128 .f32 := broadcastInDim S160x128 ![] bcast_S_S160x128 main_cst_0
  let main_v6 : IVec S160x128 1 := cmpf .olt main_v4 main_v5
  let main_c_1 : IVec S_ 1 := constantI S_ 1 1#1
  let main_v7 : IVec S_ 1 := (fun x v => Host.reduce IntOp.andi x v reducesTo_S160x128_S_d0_1 h_S_) main_v6 main_c_1
  let main_v8 : IVec S_ 1 := andi main_v3 main_v7
  let main_v9 : FVec F S10x118 .f32 := (extractStridedSlice S10x118 ![0, 10] · slices_S160x128_S10x118_0_10) main_arg1
  let main_cst_2 : FVec F S_ .f32 := constant S_ .f32 0x00000000#32
  let main_v10 : FVec F S10x118 .f32 := broadcastInDim S10x118 ![] bcast_S_S10x118 main_cst_2
  let main_v11 : IVec S10x118 1 := cmpf .oeq main_v9 main_v10
  let main_c_3 : IVec S_ 1 := constantI S_ 1 1#1
  let main_v12 : IVec S_ 1 := (fun x v => Host.reduce IntOp.andi x v reducesTo_S10x118_S_d0_1 h_S_) main_v11 main_c_3
  let main_v13 : IVec S_ 1 := andi main_v8 main_v12
  let main_v14 : FVec F S1x118 .f32 := (extractStridedSlice S1x118 ![16, 10] · slices_S160x128_S1x118_16_10) main_arg1
  let main_cst_4 : FVec F S_ .f32 := constant S_ .f32 0x00000000#32
  let main_v15 : FVec F S1x118 .f32 := broadcastInDim S1x118 ![] bcast_S_S1x118 main_cst_4
  let main_v16 : IVec S1x118 1 := cmpf .oeq main_v14 main_v15
  fn_part1 (F := F) main_v13 main_v16
-- ==== Kernel.lean ====
abbrev S1048576x10 : Shape := ⟨2, ![1048576, 10]⟩
abbrev S160x128 : Shape := ⟨2, ![160, 128]⟩
abbrev S10x1048576 : Shape := ⟨2, ![10, 1048576]⟩
abbrev S5x1048576 : Shape := ⟨2, ![5, 1048576]⟩
abbrev S1048576x5 : Shape := ⟨2, ![1048576, 5]⟩
abbrev S10x262144 : Shape := ⟨2, ![10, 262144]⟩
abbrev S5x262144 : Shape := ⟨2, ![5, 262144]⟩
abbrev S10x10 : Shape := ⟨2, ![10, 10]⟩
abbrev S1x10 : Shape := ⟨2, ![1, 10]⟩
abbrev S10x5 : Shape := ⟨2, ![10, 5]⟩
abbrev S1x5 : Shape := ⟨2, ![1, 5]⟩
abbrev S1x32768 : Shape := ⟨2, ![1, 32768]⟩
abbrev S10x32768 : Shape := ⟨2, ![10, 32768]⟩
abbrev S5x32768 : Shape := ⟨2, ![5, 32768]⟩

abbrev nBuf : Space → Nat
  | .hbm => 5
  | .vmem => 5
  | .smem => 0
  | _ => 0

abbrev bufTy : (tb : Table) → Fin (tcTables nBuf tb) → BufTy
  | .hbm, ⟨0, _⟩ => ⟨S1048576x10, .f32⟩
  | .hbm, ⟨1, _⟩ => ⟨S160x128, .f32⟩
  | .hbm, ⟨2, _⟩ => ⟨S10x1048576, .f32⟩
  | .hbm, ⟨3, _⟩ => ⟨S5x1048576, .f32⟩
  | .hbm, ⟨4, _⟩ => ⟨S1048576x5, .f32⟩
  | .local _ .vmem, ⟨0, _⟩ => ⟨S10x262144, .f32⟩
  | .local _ .vmem, ⟨1, _⟩ => ⟨S10x262144, .f32⟩
  | .local _ .vmem, ⟨2, _⟩ => ⟨S160x128, .f32⟩
  | .local _ .vmem, ⟨3, _⟩ => ⟨S5x262144, .f32⟩
  | .local _ .vmem, ⟨4, _⟩ => ⟨S5x262144, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5x262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S1048576x10_S10x1048576_1_0 : S1048576x10.Transposes [1, 0] S10x1048576
  transposes_S5x1048576_S1048576x5_1_0 : S5x1048576.Transposes [1, 0] S1048576x5
  inb_S160x128_S10x10_0_0 : ∀ a, (![0, 0] : Fin 2 → Nat) a + S10x10.size a ≤ S160x128.size a
  h_S10x10 : 0 < S10x10.numel
  inb_S160x128_S1x10_16_0 : ∀ a, (![16, 0] : Fin 2 → Nat) a + S1x10.size a ≤ S160x128.size a
  h_S1x10 : 0 < S1x10.numel
  inb_S160x128_S10x5_24_0 : ∀ a, (![24, 0] : Fin 2 → Nat) a + S10x5.size a ≤ S160x128.size a
  h_S10x5 : 0 < S10x5.numel
  inb_S160x128_S1x5_152_0 : ∀ a, (![152, 0] : Fin 2 → Nat) a + S1x5.size a ≤ S160x128.size a
  h_S1x5 : 0 < S1x5.numel
  inb_S10x262144_S10x32768_0_0 : ∀ a, (![0, 0] : Fin 2 → Nat) a + S10x32768.size a ≤ S10x262144.size a
  h_S10x32768 : 0 < S10x32768.numel
  shapeCasts_S10x32768_S10x32768 : S10x32768.ShapeCasts S10x32768
  inb_S5x262144_S5x32768_0_0 : ∀ a, (![0, 0] : Fin 2 → Nat) a + S5x32768.size a ≤ S5x262144.size a
  h_S5x32768 : 0 < S5x32768.numel
  inb_S10x262144_S10x32768_0_32768 : ∀ a, (![0, 32768] : Fin 2 → Nat) a + S10x32768.size a ≤ S10x262144.size a
  inb_S5x262144_S5x32768_0_32768 : ∀ a, (![0, 32768] : Fin 2 → Nat) a + S5x32768.size a ≤ S5x262144.size a
  inb_S10x262144_S10x32768_0_65536 : ∀ a, (![0, 65536] : Fin 2 → Nat) a + S10x32768.size a ≤ S10x262144.size a
  inb_S5x262144_S5x32768_0_65536 : ∀ a, (![0, 65536] : Fin 2 → Nat) a + S5x32768.size a ≤ S5x262144.size a
  inb_S10x262144_S10x32768_0_98304 : ∀ a, (![0, 98304] : Fin 2 → Nat) a + S10x32768.size a ≤ S10x262144.size a
  inb_S5x262144_S5x32768_0_98304 : ∀ a, (![0, 98304] : Fin 2 → Nat) a + S5x32768.size a ≤ S5x262144.size a
  inb_S10x262144_S10x32768_0_131072 : ∀ a, (![0, 131072] : Fin 2 → Nat) a + S10x32768.size a ≤ S10x262144.size a
  inb_S5x262144_S5x32768_0_131072 : ∀ a, (![0, 131072] : Fin 2 → Nat) a + S5x32768.size a ≤ S5x262144.size a
  inb_S10x262144_S10x32768_0_163840 : ∀ a, (![0, 163840] : Fin 2 → Nat) a + S10x32768.size a ≤ S10x262144.size a
  inb_S5x262144_S5x32768_0_163840 : ∀ a, (![0, 163840] : Fin 2 → Nat) a + S5x32768.size a ≤ S5x262144.size a
  inb_S10x262144_S10x32768_0_196608 : ∀ a, (![0, 196608] : Fin 2 → Nat) a + S10x32768.size a ≤ S10x262144.size a
  inb_S5x262144_S5x32768_0_196608 : ∀ a, (![0, 196608] : Fin 2 → Nat) a + S5x32768.size a ≤ S5x262144.size a
  inb_S10x262144_S10x32768_0_229376 : ∀ a, (![0, 229376] : Fin 2 → Nat) a + S10x32768.size a ≤ S10x262144.size a
  inb_S5x262144_S5x32768_0_229376 : ∀ a, (![0, 229376] : Fin 2 → Nat) a + S5x32768.size a ≤ S5x262144.size a
  dot_S10x10_S10x32768_S10x32768_0_0_1_1_n_n_wf : DotDims.WF S10x10 S10x32768 S10x32768 [0] [0] [1] [1] [] []
  dot_S1x10_S1x32768_S10x32768_0_0_1_1_n_n_wf : DotDims.WF S1x10 S1x32768 S10x32768 [0] [0] [1] [1] [] []
  dot_S10x5_S10x32768_S5x32768_0_0_1_1_n_n_wf : DotDims.WF S10x5 S10x32768 S5x32768 [0] [0] [1] [1] [] []
  dot_S1x5_S1x32768_S5x32768_0_0_1_1_n_n_wf : DotDims.WF S1x5 S1x32768 S5x32768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x262144.size a ≤ S10x1048576.size a
  hwx0_0 : ∀ i : grid0.Coords, EltTy.bits .f32 = 32 ∨ (Rect.block (s := S10x1048576) S10x262144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x262144.size a ≤ S5x1048576.size a
  hwx0_2 : ∀ i : grid0.Coords, EltTy.bits .f32 = 32 ∨ (Rect.block (s := S5x1048576) S5x262144.size (cc0_transform_2 i) (hinb0_2 i)).WholeWords (EltTy.packing .f32)

variable [Facts₀]

def dot_S10x10_S10x32768_S10x32768_0_0_1_1_n_n : DotDims S10x10 S10x32768 S10x32768 where
  lhsContracting := [0]
  rhsContracting := [0]
  lhsNonContracting := [1]
  rhsNonContracting := [1]
  lhsBatch := []
  rhsBatch := []
  wf := dot_S10x10_S10x32768_S10x32768_0_0_1_1_n_n_wf
def dot_S1x10_S1x32768_S10x32768_0_0_1_1_n_n : DotDims S1x10 S1x32768 S10x32768 where
  lhsContracting := [0]
  rhsContracting := [0]
  lhsNonContracting := [1]
  rhsNonContracting := [1]
  lhsBatch := []
  rhsBatch := []
  wf := dot_S1x10_S1x32768_S10x32768_0_0_1_1_n_n_wf
def dot_S10x5_S10x32768_S5x32768_0_0_1_1_n_n : DotDims S10x5 S10x32768 S5x32768 where
  lhsContracting := [0]
  rhsContracting := [0]
  lhsNonContracting := [1]
  rhsNonContracting := [1]
  lhsBatch := []
  rhsBatch := []
  wf := dot_S10x5_S10x32768_S5x32768_0_0_1_1_n_n_wf
def dot_S1x5_S1x32768_S5x32768_0_0_1_1_n_n : DotDims S1x5 S1x32768 S5x32768 where
  lhsContracting := [0]
  rhsContracting := [0]
  lhsNonContracting := [1]
  rhsNonContracting := [1]
  lhsBatch := []
  rhsBatch := []
  wf := dot_S1x5_S1x32768_S5x32768_0_0_1_1_n_n_wf

abbrev win0_0 : Pipeline.Window sig grid0 :=
  Pipeline.Window.ofSpec (Memref.whole main_call0_v0) S10x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S5x262144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S160x128 : Shape := ⟨2, ![160, 128]⟩
abbrev S1048576x5 : Shape := ⟨2, ![1048576, 5]⟩
abbrev S2048x10 : Shape := ⟨2, ![2048, 10]⟩
abbrev S2048x5 : Shape := ⟨2, ![2048, 5]⟩
abbrev S10x128 : Shape := ⟨2, ![10, 128]⟩
abbrev S1x128 : Shape := ⟨2, ![1, 128]⟩
abbrev S128x128 : Shape := ⟨2, ![128, 128]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S1048576x10, .f32⟩
  | .hbm, ⟨1, _⟩ => ⟨S160x128, .f32⟩
  | .hbm, ⟨2, _⟩ => ⟨S1048576x5, .f32⟩
  | .local _ .vmem, ⟨0, _⟩ => ⟨S2048x10, .f32⟩
  | .local _ .vmem, ⟨1, _⟩ => ⟨S2048x10, .f32⟩
  | .local _ .vmem, ⟨2, _⟩ => ⟨S160x128, .f32⟩
  | .local _ .vmem, ⟨3, _⟩ => ⟨S2048x5, .f32⟩
  | .local _ .vmem, ⟨4, _⟩ => ⟨S2048x5, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x10_S2048x10_0_0 : ∀ a, (![0, 0] : Fin 2 → Nat) a + S2048x10.size a ≤ S2048x10.size a
  h_S2048x10 : 0 < S2048x10.numel
  inb_S160x128_S10x128_0_0 : ∀ a, (![0, 0] : Fin 2 → Nat) a + S10x128.size a ≤ S160x128.size a
  h_S10x128 : 0 < S10x128.numel
  inb_S160x128_S1x128_16_0 : ∀ a, (![16, 0] : Fin 2 → Nat) a + S1x128.size a ≤ S160x128.size a
  h_S1x128 : 0 < S1x128.numel
  inb_S160x128_S128x128_24_0 : ∀ a, (![24, 0] : Fin 2 → Nat) a + S128x128.size a ≤ S160x128.size a
  h_S128x128 : 0 < S128x128.numel
  inb_S160x128_S1x128_152_0 : ∀ a, (![152, 0] : Fin 2 → Nat) a + S1x128.size a ≤ S160x128.size a
  broadcasts_S1x128_S2048x128 : S1x128.Broadcasts S2048x128
  slices_S2048x128_o0_0_S2048x5 : S2048x128.Slices ![0, 0] S2048x5
  inb_S2048x5_S2048x5_0_0 : ∀ a, (![0, 0] : Fin 2 → Nat) a + S2048x5.size a ≤ S2048x5.size a
  h_S2048x5 : 0 < S2048x5.numel
  dot_S2048x10_S10x128_S2048x128_1_0_0_1_n_n_wf : DotDims.WF S2048x10 S10x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S1048576x10.size a
  hwx0_0 : ∀ i : grid0.Coords, EltTy.bits .f32 = 32 ∨ (Rect.block (s := S1048576x10) S2048x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x5.size a ≤ S1048576x5.size a
  hwx0_2 : ∀ i : grid0.Coords, EltTy.bits .f32 = 32 ∨ (Rect.block (s := S1048576x5) S2048x5.size (cc0_transform_2 i) (hinb0_2 i)).WholeWords (EltTy.packing .f32)

variable [Facts₀]

def dot_S2048x10_S10x128_S2048x128_1_0_0_1_n_n : DotDims S2048x10 S10x128 S2048x128 where
  lhsContracting := [1]
  rhsContracting := [0]
  lhsNonContracting := [0]
  rhsNonContracting := [1]
  lhsBatch := []
  rhsBatch := []
  wf := dot_S2048x10_S10x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The two-layer perceptron both programs compute, as one function of the argument arrays, entry by entry, over the
  extended reals.

  `X` is the batch `[1048576, 10]`, `P` the packed parameter buffer `[160, 128]`: rows `0 … 9` hold the first layer's
  weights, row `16` its bias, rows `24 …` the second layer's weights, row `152` its bias. With
      hid b j = max (∑ k < 10, X[b,k] · P[k,j] + P[16,j]) 0
  the result at `(b, o)`, `o < 5`, is
      out b o = ∑ j < 10, hid b j · P[24+j, o] + P[152, o].
  One program sums the hidden lanes `j < 128` (`outPadded`): the lanes `10 ≤ j < 128` are padding, and when the
  first layer's padding columns are zero (`Padded`) each of those hidden values is `max (0 + 0) 0 = 0` and drops out
  of the sum (`outPadded_eq`) — this uses only `a · 0 = 0`, `0 · a = 0`, never finiteness. The other program works on
  the transposed arrays and adds each bias as a one-term product with the constant one (`outT`); commutativity of
  the product and `a · 1 = a` make it `out` (`outT_eq`).
-/
import Idealize.ShloMosaic.Lib.ValueIdx
import Idealize.ShloMosaic.PureOps.Ideal.Laws
import Mathlib.Algebra.BigOperators.Fin
import Mathlib.Algebra.BigOperators.Intervals

open scoped BigOperators

noncomputable section

namespace Cert.Mlp

open Idealize.ShloMosaic Idealize.ShloMosaic.ValueIdx

abbrev SX : Shape := ⟨2, ![1048576, 10]⟩
abbrev SP : Shape := ⟨2, ![160, 128]⟩
abbrev SY : Shape := ⟨2, ![1048576, 5]⟩

/-- Entry `(r, c)` of the parameter buffer, by natural-number coordinates (zero outside the buffer). -/
def pAt (P : SP.Idx → EReal) (r c : ℕ) : EReal :=
  if h : r < 160 ∧ c < 128 then P (ix2 (⟨r, h.1⟩ : Fin 160) (⟨c, h.2⟩ : Fin 128)) else 0

/-- Entry `(b, k)` of the batch, by natural-number coordinates (zero outside the batch). -/
def xAt (X : SX.Idx → EReal) (b k : ℕ) : EReal :=
  if h : b < 1048576 ∧ k < 10 then X (ix2 (⟨b, h.1⟩ : Fin 1048576) (⟨k, h.2⟩ : Fin 10)) else 0

theorem pAt_ix2 (P : SP.Idx → EReal) (r : Fin 160) (c : Fin 128) : P (ix2 r c) = pAt P r.val c.val := by
  unfold pAt; rw [dif_pos ⟨r.isLt, c.isLt⟩]

theorem xAt_ix2 (X : SX.Idx → EReal) (b : Fin 1048576) (k : Fin 10) : X (ix2 b k) = xAt X b.val k.val := by
  unfold xAt; rw [dif_pos ⟨b.isLt, k.isLt⟩]

/-- Hidden unit `j` of batch row `b`, after the rectifier. -/
def hid (X : SX.Idx → EReal) (P : SP.Idx → EReal) (b j : ℕ) : EReal :=
  max ((∑ k : Fin 10, xAt X b k * pAt P k j) + pAt P 16 j) 0

/-- Output `o` of batch row `b`: the ten hidden units against the second layer, plus its bias. -/
def out (X : SX.Idx → EReal) (P : SP.Idx → EReal) (b o : ℕ) : EReal :=
  (∑ j : Fin 10, hid X P b j * pAt P (24 + j) o) + pAt P 152 o

/-- The same with the hidden sum taken over all 128 lanes of the padded layout. -/
def outPadded (X : SX.Idx → EReal) (P : SP.Idx → EReal) (b o : ℕ) : EReal :=
  (∑ j : Fin 128, hid X P b j * pAt P (24 + j) o) + pAt P 152 o

/-- The transposed arrangement: weights on the left of each product, each bias a one-term product with `1`. -/
def outT (X : SX.Idx → EReal) (P : SP.Idx → EReal) (b o : ℕ) : EReal :=
  (∑ j : Fin 10, pAt P (24 + j) o
      * max ((∑ k : Fin 10, pAt P k j * xAt X b k) + ∑ _u : Fin 1, pAt P 16 j * 1) 0)
    + ∑ _u : Fin 1, pAt P 152 o * 1

/-- The whole result array. -/
def G (X : SX.Idx → EReal) (P : SP.Idx → EReal) : SY.Idx → EReal := fun i => out X P (i 0).val (i 1).val

/-- The whole result array with the hidden sum over all 128 lanes. -/
def Gpad (X : SX.Idx → EReal) (P : SP.Idx → EReal) : SY.Idx → EReal := fun i => outPadded X P (i 0).val (i 1).val

/-- The whole result array in the transposed arrangement. -/
def GT (X : SX.Idx → EReal) (P : SP.Idx → EReal) : SY.Idx → EReal := fun i => outT X P (i 0).val (i 1).val

/-- The first layer's padding columns are zero: columns `10 … 127` of the weight rows `0 … 9` and of the bias row `16`. -/
def Padded (P : SP.Idx → EReal) : Prop :=
  ∀ j : ℕ, 10 ≤ j → j < 128 → (∀ k : ℕ, k < 10 → pAt P k j = 0) ∧ pAt P 16 j = 0

/-- A padding lane's hidden value is `max (0 + 0) 0 = 0`. -/
theorem hid_pad {X : SX.Idx → EReal} {P : SP.Idx → EReal} (h : Padded P) (b j : ℕ) (hj : 10 ≤ j) (hj' : j < 128) :
    hid X P b j = 0 := by
  obtain ⟨h1, h2⟩ := h j hj hj'
  unfold hid
  rw [h2, Finset.sum_eq_zero (fun k _ => by rw [h1 k.val k.isLt, mul_zero]), add_zero, max_self]

/-- So the padding lanes drop out of the second layer's sum. -/
theorem outPadded_eq {X : SX.Idx → EReal} {P : SP.Idx → EReal} (h : Padded P) (b o : ℕ) :
    outPadded X P b o = out X P b o := by
  unfold outPadded out
  refine congrArg (· + pAt P 152 o) ?_
  rw [Fin.sum_univ_eq_sum_range (fun j => hid X P b j * pAt P (24 + j) o) 128,
    Fin.sum_univ_eq_sum_range (fun j => hid X P b j * pAt P (24 + j) o) 10]
  have hs : Finset.range 10 ⊆ Finset.range 128 := fun j hj =>
    Finset.mem_range.2 (lt_of_lt_of_le (Finset.mem_range.1 hj) (by norm_num))
  exact (Finset.sum_subset (f := fun j => hid X P b j * pAt P (24 + j) o) hs (fun j hj hj' => by
    have hj1 : j < 128 := Finset.mem_range.1 hj
    have hj2 : 10 ≤ j := Nat.le_of_not_lt fun hlt => hj' (Finset.mem_range.2 hlt)
    show hid X P b j * pAt P (24 + j) o = 0
    rw [hid_pad h b j hj2 hj1, zero_mul])).symm

/-- The transposed arrangement is the same number. -/
theorem outT_eq (X : SX.Idx → EReal) (P : SP.Idx → EReal) (b o : ℕ) : outT X P b o = out X P b o := by
  have e1 : ∀ j : ℕ, (∑ k : Fin 10, pAt P k j * xAt X b k) = ∑ k : Fin 10, xAt X b k * pAt P k j :=
    fun j => Finset.sum_congr rfl fun k _ => mul_comm _ _
  unfold outT out hid
  simp only [Fin.sum_univ_one, mul_one, e1]
  exact congrArg (· + pAt P 152 o) (Finset.sum_congr rfl fun j _ => mul_comm _ _)

/-- Under zero padding the 128-lane array is the ten-lane one. -/
theorem Gpad_eq {X : SX.Idx → EReal} {P : SP.Idx → EReal} (h : Padded P) : Gpad X P = G X P :=
  funext fun i => outPadded_eq h (i 0).val (i 1).val

/-- The transposed arrangement's array is the same array. -/
theorem GT_eq (X : SX.Idx → EReal) (P : SP.Idx → EReal) : GT X P = G X P :=
  funext fun i => outT_eq X P (i 0).val (i 1).val

/-- The floating-point word of `1.0` is the real number one. -/
theorem ofBits_one_f32 : Ideal.ofBits .f32 0x3F800000#32 = 1 := by
  simp [Ideal.ofBits, Ideal.ieee]
  rw [← EReal.coe_mul, ← EReal.coe_one]
  exact congrArg _ (by norm_num)

end Cert.Mlp

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.RefPayload.lean ====
/-
  What the 128-lane program's body stores, read at one entry.

  The body loads a tile `x : [2048, 10]` of the batch and four pieces of the parameter buffer — `w1 : [10, 128]`,
  `b1 : [1, 128]`, `w2 : [128, 128]`, `b2 : [1, 128]` — and stores the first five columns of
  `max (x · w1 + b1) 0 · w2 + b2`, each bias row repeated down the tile. At row `r`, column `o < 5`, that is
      ∑ j < 128, max (∑ k < 10, x[r,k] · w1[k,j] + b1[0,j]) 0 · w2[j,o] + b2[0,o]:
  a slice reads its operand at the same coordinates, a row repeated down the tile reads the row, and a product into
  the zero matrix is the sum over the contracted coordinate.
-/
import proofs.«110610_g2000409495619823_pallasbulk_448_19_alg».proof.Proof.Gen.ReferenceIdeal.Skeleton
import proofs.«110610_g2000409495619823_pallasbulk_448_19_alg».proof.Proof.LibMatmul
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx

/-- A bias row `[1, 128]` repeated down a `[2048, 128]` tile reads, at `(r, c)`, the row at `c`. -/
theorem row_bcast (v : FVec Ideal S1x128 .f32) (h : S1x128.Broadcasts S2048x128) (r : Fin 2048) (c : Fin 128) :
    broadcastTo S2048x128 v h (ix2 r c) = v (ix2 (0 : Fin 1) c) :=
  broadcastTo_apply v h (ix2 r c) (ix2 (0 : Fin 1) c) fun a => by
    match a with
    | ⟨0, _⟩ => show (0 : ℕ) = if (1 : ℕ) = 1 then 0 else r.val; rw [if_pos rfl]
    | ⟨1, _⟩ => show c.val = if (128 : ℕ) = 1 then 0 else c.val; rw [if_neg (by decide)]

/-- The hidden tile at `(r, j)`: the rectified first layer. -/
theorem hidden_apply (v0 : FVec Ideal S2048x10 .f32) (v1 : FVec Ideal S10x128 .f32) (v2 : FVec Ideal S1x128 .f32)
    (h : S1x128.Broadcasts S2048x128) (r : Fin 2048) (j : Fin 128) :
    maximumf (addf (matmul dot_S2048x10_S10x128_S2048x128_1_0_0_1_n_n none v0 v1 (constant S2048x128 .f32 0x00000000#32))
        (broadcastTo S2048x128 v2 h)) (broadcast S2048x128 (Scalar.ofBits .f32 0x00000000#32)) (ix2 r j)
      = max ((∑ k : Fin 10, v0 (ix2 r k) * v1 (ix2 k j)) + v2 (ix2 (0 : Fin 1) j)) 0 := by
  rw [maximumf_apply, addf_apply, row_bcast, broadcast_apply]
  have e : matmul dot_S2048x10_S10x128_S2048x128_1_0_0_1_n_n none v0 v1 (constant S2048x128 .f32 0x00000000#32) (ix2 r j)
      = ∑ k : Fin 10, v0 (ix2 r k) * v1 (ix2 k j) :=
    Cert.Lib.Matmul.matmul_plain_zero_apply (M := 2048) (K := 10) (N := 128) none v0 v1 r j
  rw [e]
  exact congrArg (max _) Ideal.ofBits_zero_f32

/-- THE STORED TILE at `(r, o)`. -/
theorem pay_apply (v0 : FVec Ideal S2048x10 .f32) (v1 : FVec Ideal S10x128 .f32) (v2 : FVec Ideal S1x128 .f32)
    (v3 : FVec Ideal S128x128 .f32) (v4 : FVec Ideal S1x128 .f32) (r : Fin 2048) (o : Fin 5) :
    k0_pay1 (F := Ideal) v0 v1 v2 v3 v4 (ix2 r o)
      = (∑ j : Fin 128, max ((∑ k : Fin 10, v0 (ix2 r k) * v1 (ix2 k j)) + v2 (ix2 (0 : Fin 1) j)) 0
            * v3 (ix2 j (⟨o.val, by omega⟩ : Fin 128)))
        + v4 (ix2 (0 : Fin 1) (⟨o.val, by omega⟩ : Fin 128)) := by
  unfold k0_pay1
  refine (extractStridedSlice_apply _ _ _ (ix2 r o) (ix2 r (⟨o.val, by omega⟩ : Fin 128)) (fun a => by
    match a with
    | ⟨0, _⟩ => show r.val = 0 + r.val; omega
    | ⟨1, _⟩ => show o.val = 0 + o.val; omega)).trans ?_
  rw [addf_apply, row_bcast]
  refine congrArg (· + v4 (ix2 (0 : Fin 1) (⟨o.val, by omega⟩ : Fin 128))) ?_
  refine (Cert.Lib.Matmul.matmul_plain_zero_apply (M := 2048) (K := 128) (N := 128) none _ v3 r ⟨o.val, by omega⟩).trans ?_
  exact Finset.sum_congr rfl fun j _ => congrArg (· * v3 (ix2 j (⟨o.val, by omega⟩ : Fin 128))) (hidden_apply v0 v1 v2 _ r j)

end Cert.ReferenceIdeal.RefValue

end
-- ==== Proof.RefValue.lean ====
/-
  The 128-lane program's result array, as one function of its argument arrays.

  Its grid has 512 points; point `t` stages rows `2048 t … 2048 t + 2047` of the batch and the whole parameter buffer,
  and writes back rows `2048 t … 2048 t + 2047` of the result. What the body leaves in the output tile at `(r, o)` is
  `outPadded` at batch row `2048 t + r` and column `o`: the four parameter pieces are the buffer read at row offsets
  `0, 16, 24, 152`, the batch tile is the batch read at row offset `2048 t`. The 512 tiles cover the result array (row
  `b` lies in tile `b / 2048`), so the array ends holding `Gpad` of the arguments.
-/
import proofs.«110610_g2000409495619823_pallasbulk_448_19_alg».proof.Proof.Gen.ReferenceIdeal.Value
import proofs.«110610_g2000409495619823_pallasbulk_448_19_alg».proof.Proof.RefPayload
import proofs.«110610_g2000409495619823_pallasbulk_448_19_alg».proof.Proof.Spec

open scoped BigOperators

noncomputable section

namespace Cert.ReferenceIdeal.RefValue

open Cert.ReferenceIdeal Cert.ReferenceIdeal.Gen Cert.ReferenceIdeal.Value Cert.Mlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The four parameter pieces are the buffer at fixed row offsets -/

theorem ld_w1 (x1 : Vec Ideal S160x128 .f32) (k : Fin 10) (j : Fin 128) :
    View.ld x1 r0_1 (ix2 k j) = pAt x1 k.val j.val := by
  refine Eq.trans ?_ (pAt_ix2 x1 ⟨k.val, by omega⟩ ⟨j.val, by omega⟩)
  exact congrArg x1 (funext fun a => Fin.ext (by
    match a with
    | ⟨0, _⟩ => show 0 + 1 * k.val = k.val; omega
    | ⟨1, _⟩ => show 0 + 1 * j.val = j.val; omega))

theorem ld_b1 (x1 : Vec Ideal S160x128 .f32) (j : Fin 128) :
    View.ld x1 r0_2 (ix2 (0 : Fin 1) j) = pAt x1 16 j.val := by
  refine Eq.trans ?_ (pAt_ix2 x1 ⟨16, by omega⟩ ⟨j.val, by omega⟩)
  exact congrArg x1 (funext fun a => Fin.ext (by
    match a with
    | ⟨0, _⟩ => show 16 + 1 * 0 = 16; omega
    | ⟨1, _⟩ => show 0 + 1 * j.val = j.val; omega))

theorem ld_w2 (x1 : Vec Ideal S160x128 .f32) (j : Fin 128) (o : Fin 128) :
    View.ld x1 r0_3 (ix2 j o) = pAt x1 (24 + j.val) o.val := by
  refine Eq.trans ?_ (pAt_ix2 x1 ⟨24 + j.val, by omega⟩ ⟨o.val, by omega⟩)
  exact congrArg x1 (funext fun a => Fin.ext (by
    match a with
    | ⟨0, _⟩ => show 24 + 1 * j.val = 24 + j.val; omega
    | ⟨1, _⟩ => show 0 + 1 * o.val = o.val; omega))

theorem ld_b2 (x1 : Vec Ideal S160x128 .f32) (o : Fin 128) :
    View.ld x1 r0_4 (ix2 (0 : Fin 1) o) = pAt x1 152 o.val := by
  refine Eq.trans ?_ (pAt_ix2 x1 ⟨152, by omega⟩ ⟨o.val, by omega⟩)
  exact congrArg x1 (funext fun a => Fin.ext (by
    match a with
    | ⟨0, _⟩ => show 152 + 1 * 0 = 152; omega
    | ⟨1, _⟩ => show 0 + 1 * o.val = o.val; omega))

/-! ## The output tile, from a batch tile and the parameter buffer -/

/-- The stored tile when the four loaded pieces are entries of a parameter buffer `P`. -/
theorem pay_of_pieces (v0 : FVec Ideal S2048x10 .f32) (v1 : FVec Ideal S10x128 .f32) (v2 : FVec Ideal S1x128 .f32)
    (v3 : FVec Ideal S128x128 .f32) (v4 : FVec Ideal S1x128 .f32) (P : SP.Idx → EReal)
    (h1 : ∀ (k : Fin 10) (j : Fin 128), v1 (ix2 k j) = pAt P k.val j.val)
    (h2 : ∀ j : Fin 128, v2 (ix2 (0 : Fin 1) j) = pAt P 16 j.val)
    (h3 : ∀ j o : Fin 128, v3 (ix2 j o) = pAt P (24 + j.val) o.val)
    (h4 : ∀ o : Fin 128, v4 (ix2 (0 : Fin 1) o) = pAt P 152 o.val) (r : Fin 2048) (o : Fin 5) :
    k0_pay1 (F := Ideal) v0 v1 v2 v3 v4 (ix2 r o)
      = (∑ j : Fin 128, max ((∑ k : Fin 10, v0 (ix2 r k) * pAt P k j) + pAt P 16 j) 0 * pAt P (24 + j) o)
        + pAt P 152 o := by
  rw [pay_apply]
  simp only [h1, h2, h3, h4]

theorem tile_apply (x0 : Vec Ideal S2048x10 .f32) (x1 : Vec Ideal S160x128 .f32) (r : Fin 2048) (o : Fin 5) :
    out0_2 (F := Ideal) x0 x1 (ix2 r o)
      = (∑ j : Fin 128, max ((∑ k : Fin 10, x0 (ix2 r k) * pAt x1 k j) + pAt x1 16 j) 0 * pAt x1 (24 + j) o)
        + pAt x1 152 o := by
  unfold out0_2
  rw [View.canon_unit_zero hz, View.ld_unit_zero (S := S2048x10) hz]
  exact pay_of_pieces x0 (View.ld x1 r0_1) (View.ld x1 r0_2) (View.ld x1 r0_3) (View.ld x1 r0_4) x1
    (ld_w1 x1) (ld_b1 x1) (ld_w2 x1) (ld_b2 x1) r o

/-! ## The windows' blocks at a point -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The parameter window's block is the whole buffer at every point. -/
theorem iblk1_eq (c : Dev nD) (t : Fin cfg0.N) :
    (iblk m c 1 t : FVec Ideal S160x128 .f32) = (V m c main_arg1 : S160x128.Idx → EReal) := by
  obtain ⟨e0, e1⟩ := idx_w1 t
  funext y
  unfold iblk
  rw [View.read_apply]
  show V m c main_arg1 _ = V m c main_arg1 y
  refine congrArg (V m c main_arg1) (funext fun a => Fin.ext ?_)
  match a with
  | ⟨0, _⟩ => show win0_1.index t (0 : Fin 2) * 160 + 1 * (y 0).val = (y 0).val; rw [e0]; omega
  | ⟨1, _⟩ => show win0_1.index t (1 : Fin 2) * 128 + 1 * (y 1).val = (y 1).val; rw [e1]; omega

/-- The batch window's block at point `t` is rows `2048 t …` of the batch. -/
theorem iblk0_apply (c : Dev nD) (t : Fin cfg0.N) (r : Fin 2048) (k : Fin 10) :
    (iblk m c 0 t : FVec Ideal S2048x10 .f32) (ix2 r k) = xAt (V m c main_arg0) (t.val * 2048 + r.val) k.val := by
  obtain ⟨e0, e1⟩ := idx_w0 t
  have ht : t.val < 512 := lt_of_lt_of_eq t.isLt N_0
  refine Eq.trans ?_ (xAt_ix2 (V m c main_arg0) ⟨t.val * 2048 + r.val, by omega⟩ k)
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 10 + 1 * k.val = k.val; rw [e1]; omega

/-! ## What a point writes back, the cover, the array -/

/-- WHAT POINT `t` WRITES BACK is block `t` of `Gpad` of the argument arrays. -/
theorem flushed_eq (c : Dev nD) (t : Fin cfg0.N) :
    (dats m 0 c).flushed 2 t
      = ((cfg0.win 2).blk t).view.read (Elt Ideal) (Gpad (V m c main_arg0) (V m c main_arg1)) := by
  rw [flushed2]
  obtain ⟨e0, e1⟩ := idx_w2 t
  funext y
  obtain ⟨r, o, rfl⟩ : ∃ (r : Fin 2048) (o : Fin 5), y = ix2 r o := ⟨y 0, y 1, eq_ix2 y⟩
  show out0_2 (iblk m c 0 t) (iblk m c 1 t) (ix2 r o)
    = outPadded (V m c main_arg0) (V m c main_arg1) (win0_2.index t (0 : Fin 2) * 2048 + 1 * r.val)
        (win0_2.index t (1 : Fin 2) * 5 + 1 * o.val)
  refine (tile_apply (iblk m c 0 t) (iblk m c 1 t) r o).trans ?_
  rw [iblk1_eq m c t, e0, e1]
  simp only [iblk0_apply m c t, Nat.one_mul, Nat.zero_mul, Nat.zero_add]
  rfl

/-- An index of the array is in point `t`'s block iff each coordinate is in the block's range on its axis. -/
theorem mem_blk (t : Fin cfg0.N) (i : S1048576x5.Idx) :
    i ∈ ((cfg0.win 2).blk t).view.set ↔ ∀ a : Fin 2, win0_2.index t a * S2048x5.size a ≤ (i a).val
      ∧ (i a).val < win0_2.index t a * S2048x5.size a + S2048x5.size a := by
  show i ∈ ((View.whole main_v0).slice (win0_2.rect t)).set ↔ _
  rw [View.set_slice_whole, Rect.mem_set_unit]
  exact Iff.rfl

/-- Every index of the result array is in some point's block: row `b` in tile `b / 2048`. -/
theorem cover (i : S1048576x5.Idx) :
    ∃ t : Fin cfg0.N, (cfg0.win 2).flush t = true ∧ i ∈ ((cfg0.win 2).blk t).view.set := by
  have h0 : (i 0).val < 1048576 := (i 0).isLt
  have h1 : (i 1).val < 5 := (i 1).isLt
  have hN : cfg0.N = 512 := N_0
  refine ⟨⟨(i 0).val / 2048, by rw [hN]; omega⟩, flush0_2 _, ?_⟩
  rw [mem_blk]
  obtain ⟨e0, e1⟩ := idx_w2 ⟨(i 0).val / 2048, by rw [hN]; omega⟩
  intro a
  match a with
  | ⟨0, _⟩ =>
    show win0_2.index _ (0 : Fin 2) * 2048 ≤ (i 0).val ∧ (i 0).val < win0_2.index _ (0 : Fin 2) * 2048 + 2048
    rw [e0]; show (i 0).val / 2048 * 2048 ≤ (i 0).val ∧ (i 0).val < (i 0).val / 2048 * 2048 + 2048; omega
  | ⟨1, _⟩ =>
    show win0_2.index _ (1 : Fin 2) * 5 ≤ (i 1).val ∧ (i 1).val < win0_2.index _ (1 : Fin 2) * 5 + 5
    rw [e1]; omega

/-- THE ARRAY after the run. -/
theorem final (c : Dev nD) : (dats m 0 c).arrAt 2 cfg0.N = Gpad (V m c main_arg0) (V m c main_arg1) :=
  (dats m 0 c).arrAt_eq_of_cover 2 (Gpad (V m c main_arg0) (V m c main_arg1)) (fun t _ => flushed_eq m c t) cover

/-- The run, read: the result array at `Gpad` of the arguments, the arguments unchanged. -/
theorem run : θ_run defs (onTc (τ := τ) (main (F := Ideal))) ⟨m, fun _ => 0, ρ⟩ fun r => ∀ c : Dev nD,
      r.2.mem ((c : Thread nD τ).loc main_v0)
        = Gpad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ReferenceIdeal.RefValue

end
-- ==== Proof.LibMatmulLeftT.lean ====
/-
  A matrix product whose LEFT operand is contracted on its FIRST axis, read at an entry, over the extended reals, at
  any extents.

  The product of a `[K, M]` matrix with a `[K, N]` matrix, both contracted on their first axis (no batch axis) —
  the transpose of the left operand times the right operand — accumulated into the zero matrix is, at `(p, e)`, the
  sum over the contracted coordinate `f` of the left operand at `(f, p)` times the right operand at `(f, e)`: the
  operand indices the product names at an output index and a contraction index are `(f, p)` and `(f, e)`, and the
  one-axis contraction index is its one coordinate. `DotDims.leftT M K N` carries the dimension numbers
  `<[0], [0], [1], [1], …, [], []>`; a record with these six lists is equal to it by `rfl`.
-/
import Idealize.ShloMosaic.Lib.ValueIdx
import Idealize.ShloMosaic.PureOps.Ideal.Laws

open scoped BigOperators

noncomputable section

namespace Idealize.ShloMosaic.DotDims

/-- `<[0], [0], [1], [1], [0, 1, 1, 1], [], []>`: `K×M` by `K×N`, both operands contracted on their first axis. -/
def leftT (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

end Idealize.ShloMosaic.DotDims

namespace Cert.Lib.MatmulLeftT

open Idealize.ShloMosaic Idealize.ShloMosaic.ValueIdx

variable {M K N : ℕ}

theorem leftT_lhs0 (i : (⟨2, ![M, N]⟩ : Shape).Idx) (q : (DotDims.leftT M K N).contr.Idx) :
    ((DotDims.leftT M K N).lhsIdx i q 0).val = (q ⟨0, Nat.one_pos⟩).val :=
  (DotDims.leftT M K N).lhsIdx_val_of_single rfl i q

theorem leftT_lhs1 (i : (⟨2, ![M, N]⟩ : Shape).Idx) (q : (DotDims.leftT M K N).contr.Idx) :
    ((DotDims.leftT M K N).lhsIdx i q 1).val = (i 0).val := by
  unfold DotDims.lhsIdx
  rw [dif_neg (show ¬(1 : Fin 2) ∈ (DotDims.leftT M K N).lhsBatch from List.not_mem_nil),
    dif_pos (show (1 : Fin 2) ∈ (DotDims.leftT M K N).lhsNonContracting from List.mem_singleton.mpr rfl)]
  rfl

theorem leftT_rhs0 (i : (⟨2, ![M, N]⟩ : Shape).Idx) (q : (DotDims.leftT M K N).contr.Idx) :
    ((DotDims.leftT M K N).rhsIdx i q 0).val = (q ⟨0, Nat.one_pos⟩).val :=
  (DotDims.leftT M K N).rhsIdx_val_of_single rfl i q

theorem leftT_rhs1 (i : (⟨2, ![M, N]⟩ : Shape).Idx) (q : (DotDims.leftT M K N).contr.Idx) :
    ((DotDims.leftT M K N).rhsIdx i q 1).val = (i 1).val := by
  unfold DotDims.rhsIdx
  rw [dif_neg (show ¬(1 : Fin 2) ∈ (DotDims.leftT M K N).rhsBatch from List.not_mem_nil),
    dif_pos (show (1 : Fin 2) ∈ (DotDims.leftT M K N).rhsNonContracting from List.mem_singleton.mpr rfl)]
  rfl

/-- The sum over the product's contraction index, re-indexed by the contracted coordinate. -/
theorem leftT_sum {φ₁ φ₂ : FTy} (L : FVec Ideal ⟨2, ![K, M]⟩ φ₁) (R : FVec Ideal ⟨2, ![K, N]⟩ φ₂) (p : Fin M) (e : Fin N) :
    (∑ k : (DotDims.leftT M K N).contr.Idx,
        L ((DotDims.leftT M K N).lhsIdx (ix2 p e) k) * R ((DotDims.leftT M K N).rhsIdx (ix2 p e) k))
      = ∑ f : Fin K, L (ix2 f p) * R (ix2 f e) := by
  rw [← Equiv.sum_comp (contrEquiv1 (DotDims.leftT M K N) K rfl rfl).symm]
  refine Finset.sum_congr rfl fun f _ => ?_
  have hk := contrEquiv1_symm_val (DotDims.leftT M K N) K rfl rfl f
  have el : (DotDims.leftT M K N).lhsIdx (ix2 p e) ((contrEquiv1 (DotDims.leftT M K N) K rfl rfl).symm f) = ix2 f p :=
    funext fun a => Fin.ext (by
      match a with
      | ⟨0, _⟩ => exact (leftT_lhs0 _ _).trans hk
      | ⟨1, _⟩ => exact leftT_lhs1 _ _)
  have er : (DotDims.leftT M K N).rhsIdx (ix2 p e) ((contrEquiv1 (DotDims.leftT M K N) K rfl rfl).symm f) = ix2 f e :=
    funext fun a => Fin.ext (by
      match a with
      | ⟨0, _⟩ => exact (leftT_rhs0 _ _).trans hk
      | ⟨1, _⟩ => exact leftT_rhs1 _ _)
  rw [el, er]

/-- The transpose of a `[K, M]` matrix times a `[K, N]` matrix into the zero accumulator, at `(p, e)`. -/
theorem matmul_leftT_zero_apply {φ₁ φ₂ : FTy} (prec : Option ContractPrecision) (L : FVec Ideal ⟨2, ![K, M]⟩ φ₁)
    (R : FVec Ideal ⟨2, ![K, N]⟩ φ₂) (p : Fin M) (e : Fin N) :
    matmul (DotDims.leftT M K N) prec L R (constant ⟨2, ![M, N]⟩ .f32 0x00000000#32) (ix2 p e)
      = ∑ f : Fin K, L (ix2 f p) * R (ix2 f e) :=
  (Ideal.matmul_constant_zero_apply (DotDims.leftT M K N) prec L R (ix2 p e)).trans (leftT_sum L R p e)

end Cert.Lib.MatmulLeftT

end
-- ==== Proof.KerPayload.lean ====
/-
  What the transposed program's body stores for one chunk of 32768 batch columns, read at one entry.

  The body loads four pieces of the parameter buffer — `w1 : [10, 10]`, `b1 : [1, 10]`, `w2 : [10, 5]`, `b2 : [1, 5]` — and,
  chunk by chunk, a `[10, 32768]` slab `xc` of the transposed batch, and stores
      w2ᵀ · max (w1ᵀ · xc + b1ᵀ · 𝟙) 0 + b2ᵀ · 𝟙,      𝟙 the `[1, 32768]` row of ones.
  Every product contracts its two operands on their FIRST axis, so at row `o < 5`, column `q`, the stored value is
      ∑ j < 10, w2[j,o] · max (∑ k < 10, w1[k,j] · xc[k,q] + ∑ u < 1, b1[u,j] · 1) 0 + ∑ u < 1, b2[u,o] · 1.
  The eight chunks' payloads are printed in slightly different forms (the row of ones or the constant one passed in,
  the hidden slab computed in an earlier part): each is the first form at the row of ones and the chunk's slab.
-/
import proofs.«110610_g2000409495619823_pallasbulk_448_19_alg».proof.Proof.Gen.KernelIdeal.Skeleton
import proofs.«110610_g2000409495619823_pallasbulk_448_19_alg».proof.Proof.LibMatmulLeftT
import proofs.«110610_g2000409495619823_pallasbulk_448_19_alg».proof.Proof.Spec
import Idealize.ShloMosaic.Lib.ValueIdx
import Idealize.ShloMosaic.Lib.Pipeline.Value
import Idealize.ShloMosaic.PureOps.Ideal.Laws

open scoped BigOperators

noncomputable section

namespace Cert.KernelIdeal.KerValue

open Cert.KernelIdeal Cert.KernelIdeal.Gen Idealize.ShloMosaic Idealize.ShloMosaic.ValueIdx

/-- The `[1, 32768]` row of ones. -/
abbrev ones : FVec Ideal S1x32768 .f32 := broadcast S1x32768 (Scalar.ofBits (F := Ideal) .f32 0x3F800000#32)

theorem ones_apply (u : Fin 1) (q : Fin 32768) : ones (ix2 u q) = 1 := Cert.Mlp.ofBits_one_f32

/-- The hidden slab at `(j, q)`: the rectified first layer of batch column `q`. -/
theorem hidden_apply (w1 : FVec Ideal S10x10 .f32) (b1 : FVec Ideal S1x10 .f32) (xc : FVec Ideal S10x32768 .f32)
    (j : Fin 10) (q : Fin 32768) :
    maximumf (addf (matmul dot_S10x10_S10x32768_S10x32768_0_0_1_1_n_n none w1 xc (constant S10x32768 .f32 0x00000000#32))
        (matmul dot_S1x10_S1x32768_S10x32768_0_0_1_1_n_n none b1 ones (constant S10x32768 .f32 0x00000000#32)))
      (broadcast S10x32768 (Scalar.ofBits .f32 0x00000000#32)) (ix2 j q)
      = max ((∑ k : Fin 10, w1 (ix2 k j) * xc (ix2 k q)) + ∑ u : Fin 1, b1 (ix2 u j) * 1) 0 := by
  rw [maximumf_apply, addf_apply, broadcast_apply]
  have e1 : matmul dot_S10x10_S10x32768_S10x32768_0_0_1_1_n_n none w1 xc (constant S10x32768 .f32 0x00000000#32) (ix2 j q)
      = ∑ k : Fin 10, w1 (ix2 k j) * xc (ix2 k q) :=
    Cert.Lib.MatmulLeftT.matmul_leftT_zero_apply (M := 10) (K := 10) (N := 32768) none w1 xc j q
  have e2 : matmul dot_S1x10_S1x32768_S10x32768_0_0_1_1_n_n none b1 ones (constant S10x32768 .f32 0x00000000#32) (ix2 j q)
      = ∑ u : Fin 1, b1 (ix2 u j) * ones (ix2 u q) :=
    Cert.Lib.MatmulLeftT.matmul_leftT_zero_apply (M := 10) (K := 1) (N := 32768) none b1 ones j q
  rw [e1, e2]
  simp only [ones_apply]
  exact congrArg (max _) Ideal.ofBits_zero_f32

/-- THE STORED CHUNK at `(o, q)`. -/
theorem chunk_apply (w1 : FVec Ideal S10x10 .f32) (b1 : FVec Ideal S1x10 .f32) (w2 : FVec Ideal S10x5 .f32)
    (b2 : FVec Ideal S1x5 .f32) (xc : FVec Ideal S10x32768 .f32) (o : Fin 5) (q : Fin 32768) :
    k0_pay1 (F := Ideal) w1 b1 w2 b2 ones xc (ix2 o q)
      = (∑ j : Fin 10, w2 (ix2 j o)
            * max ((∑ k : Fin 10, w1 (ix2 k j) * xc (ix2 k q)) + ∑ u : Fin 1, b1 (ix2 u j) * 1) 0)
        + ∑ u : Fin 1, b2 (ix2 u o) * 1 := by
  unfold k0_pay1
  rw [addf_apply]
  have e2 : matmul dot_S1x5_S1x32768_S5x32768_0_0_1_1_n_n none b2 ones (constant S5x32768 .f32 0x00000000#32) (ix2 o q)
      = ∑ u : Fin 1, b2 (ix2 u o) * ones (ix2 u q) :=
    Cert.Lib.MatmulLeftT.matmul_leftT_zero_apply (M := 5) (K := 1) (N := 32768) none b2 ones o q
  rw [e2]
  simp only [ones_apply]
  refine congrArg (· + ∑ u : Fin 1, b2 (ix2 u o) * 1) ?_
  refine (Cert.Lib.MatmulLeftT.matmul_leftT_zero_apply (M := 5) (K := 10) (N := 32768) none w2 _ o q).trans ?_
  exact Finset.sum_congr rfl fun j _ => congrArg (w2 (ix2 j o) * ·) (hidden_apply w1 b1 xc j q)

/-! ## The other printed forms of a chunk's payload -/

section Forms
variable (v0 : Vec Ideal S10x10 .f32) (v1 : Vec Ideal S1x10 .f32) (v2 : Vec Ideal S10x5 .f32) (v3 : Vec Ideal S1x5 .f32)
  (x : Vec Ideal S10x32768 .f32)

theorem pay2_eq : k0_pay2 (F := Ideal) v0 v1 v2 v3 x = k0_pay1 v0 v1 v2 v3 ones x := by
  unfold k0_pay2 k0_pay1; rw [shapeCast_self]
theorem pay3_eq : k0_pay3 (F := Ideal) v0 v1 v2 v3 x = k0_pay1 v0 v1 v2 v3 ones x := by
  unfold k0_pay3 k0_pay1; rw [shapeCast_self]
theorem pay4_eq : k0_pay4 (F := Ideal) v0 v1 v2 v3 (Scalar.ofBits .f32 0x3F800000#32) x = k0_pay1 v0 v1 v2 v3 ones x := by
  unfold k0_pay4 k0_pay1; rw [shapeCast_self]
theorem pay5_eq : k0_pay5 (F := Ideal) v0 v1 v2 v3 x = k0_pay1 v0 v1 v2 v3 ones x := by
  unfold k0_pay5 k0_pay1; rw [shapeCast_self]
theorem pay8_eq : k0_pay8 (F := Ideal) v2 v3 (k0_pay6 (F := Ideal)) (k0_pay7 v0 v1 x) (constant S5x32768 .f32 0x00000000#32)
    = k0_pay1 v0 v1 v2 v3 ones x := by
  unfold k0_pay8 k0_pay7 k0_pay6 k0_pay1; rw [shapeCast_self]
theorem pay9_eq : k0_pay9 (F := Ideal) v0 v1 v2 v3 x = k0_pay1 v0 v1 v2 v3 ones x := by
  unfold k0_pay9 k0_pay1; rw [shapeCast_self]
theorem pay10_eq : k0_pay10 (F := Ideal) v0 v1 v2 v3 x = k0_pay1 v0 v1 v2 v3 ones x := by
  unfold k0_pay10 k0_pay1; rw [shapeCast_self]
theorem pay1_eq : k0_pay1 (F := Ideal) v0 v1 v2 v3 (k0_pay11 (F := Ideal)) (k0_pay12 x) = k0_pay1 v0 v1 v2 v3 ones x := by
  unfold k0_pay11 k0_pay12; rw [shapeCast_self]

end Forms

end Cert.KernelIdeal.KerValue

end
-- ==== Proof.KerValue.lean ====
/-
  The transposed program's result array, as one function of its argument arrays.

  The host first transposes the batch to `[10, 1048576]`; the grid has 4 points, point `t` staging columns
  `262144 t … 262144 t + 262143` of the transposed batch and the whole parameter buffer, and writing back the same
  columns of a `[5, 1048576]` array; the host then transposes that array to the `[1048576, 5]` result.
  Within a point the body works through eight chunks of 32768 columns, each stored through its own rectangle of the
  output slab; every chunk's stored value at `(o, q)` is one function `blkOut` of the staged slab, the parameter buffer
  and the slab coordinates, so the eight stores together leave `Gblk`. A staged slab entry `(k, q)` at point `t` is the
  batch at `(262144 t + q, k)`, which makes the slab's result the transposed arrangement `outT` at batch row
  `262144 t + q`. The four slabs cover the `[5, 1048576]` array (column `b` lies in slab `b / 262144`), and the final
  transpose turns it into `GT` of the arguments.
-/
import proofs.«110610_g2000409495619823_pallasbulk_448_19_alg».proof.Proof.Gen.KernelIdeal.Frame
import proofs.«110610_g2000409495619823_pallasbulk_448_19_alg».proof.Proof.KerPayload
import proofs.«110610_g2000409495619823_pallasbulk_448_19_alg».proof.Proof.Spec
import Idealize.ShloMosaic.Lib.Pipeline.Value
import Idealize.ShloMosaic.Lib.StableHlo.Run

open scoped BigOperators

noncomputable section

namespace Cert.KernelIdeal.KerValue

open Cert.KernelIdeal Cert.KernelIdeal.Gen Cert.Mlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## A staged slab and what the body makes of it -/

/-- Entry `(k, q)` of a staged `[10, 262144]` slab of the transposed batch, by natural-number coordinates. -/
def tAt (x0 : S10x262144.Idx → EReal) (k q : ℕ) : EReal :=
  if h : k < 10 ∧ q < 262144 then x0 (ix2 (⟨k, h.1⟩ : Fin 10) (⟨q, h.2⟩ : Fin 262144)) else 0

theorem tAt_ix2 (x0 : S10x262144.Idx → EReal) (k : Fin 10) (q : Fin 262144) : x0 (ix2 k q) = tAt x0 k.val q.val := by
  unfold tAt; rw [dif_pos ⟨k.isLt, q.isLt⟩]

/-- The body's result for slab column `q`, output row `o`. -/
def blkOut (x0 : S10x262144.Idx → EReal) (P : SP.Idx → EReal) (o q : ℕ) : EReal :=
  (∑ j : Fin 10, pAt P (24 + j) o
      * max ((∑ k : Fin 10, pAt P k j * tAt x0 k q) + ∑ _u : Fin 1, pAt P 16 j * 1) 0)
    + ∑ _u : Fin 1, pAt P 152 o * 1

/-- The whole output slab. -/
def Gblk (x0 : S10x262144.Idx → EReal) (P : SP.Idx → EReal) : S5x262144.Idx → EReal :=
  fun y => blkOut x0 P (y 0).val (y 1).val

/-! ## The loaded pieces are the buffer at fixed row offsets, the chunks the slab at fixed column offsets -/

theorem ld_w1 (x1 : Vec Ideal S160x128 .f32) (k j : Fin 10) : View.ld x1 r0_0 (ix2 k j) = pAt x1 k.val j.val := by
  refine Eq.trans ?_ (pAt_ix2 x1 ⟨k.val, by omega⟩ ⟨j.val, by omega⟩)
  exact congrArg x1 (funext fun a => Fin.ext (by
    match a with
    | ⟨0, _⟩ => show 0 + 1 * k.val = k.val; omega
    | ⟨1, _⟩ => show 0 + 1 * j.val = j.val; omega))

theorem ld_b1 (x1 : Vec Ideal S160x128 .f32) (u : Fin 1) (j : Fin 10) : View.ld x1 r0_1 (ix2 u j) = pAt x1 16 j.val := by
  have hu : u.val = 0 := by omega
  refine Eq.trans ?_ (pAt_ix2 x1 ⟨16, by omega⟩ ⟨j.val, by omega⟩)
  exact congrArg x1 (funext fun a => Fin.ext (by
    match a with
    | ⟨0, _⟩ => show 16 + 1 * u.val = 16; omega
    | ⟨1, _⟩ => show 0 + 1 * j.val = j.val; omega))

theorem ld_w2 (x1 : Vec Ideal S160x128 .f32) (j : Fin 10) (o : Fin 5) :
    View.ld x1 r0_2 (ix2 j o) = pAt x1 (24 + j.val) o.val := by
  refine Eq.trans ?_ (pAt_ix2 x1 ⟨24 + j.val, by omega⟩ ⟨o.val, by omega⟩)
  exact congrArg x1 (funext fun a => Fin.ext (by
    match a with
    | ⟨0, _⟩ => show 24 + 1 * j.val = 24 + j.val; omega
    | ⟨1, _⟩ => show 0 + 1 * o.val = o.val; omega))

theorem ld_b2 (x1 : Vec Ideal S160x128 .f32) (u : Fin 1) (o : Fin 5) : View.ld x1 r0_3 (ix2 u o) = pAt x1 152 o.val := by
  have hu : u.val = 0 := by omega
  refine Eq.trans ?_ (pAt_ix2 x1 ⟨152, by omega⟩ ⟨o.val, by omega⟩)
  exact congrArg x1 (funext fun a => Fin.ext (by
    match a with
    | ⟨0, _⟩ => show 152 + 1 * u.val = 152; omega
    | ⟨1, _⟩ => show 0 + 1 * o.val = o.val; omega))

/-- The chunk loaded at column offset `off` reads the slab at columns `off + q`. -/
theorem ld_chunk (x0 : Vec Ideal S10x262144 .f32) (off : ℕ) (inb : ∀ a, (![0, off] : Fin 2 → ℕ) a + S10x32768.size a ≤ S10x262144.size a)
    (hoff : off + 32768 ≤ 262144) (k : Fin 10) (q : Fin 32768) :
    View.ld x0 (Rect.unit (s := S10x262144) ![0, off] S10x32768.size inb) (ix2 k q) = tAt x0 k.val (off + q.val) := by
  refine Eq.trans ?_ (tAt_ix2 x0 ⟨k.val, by omega⟩ ⟨off + q.val, by omega⟩)
  exact congrArg x0 (funext fun a => Fin.ext (by
    match a with
    | ⟨0, _⟩ => show 0 + 1 * k.val = k.val; omega
    | ⟨1, _⟩ => show off + 1 * q.val = off + q.val; omega))

/-- One chunk's stored value, when its operands are entries of a parameter buffer `P` and of a slab `x0`. -/
theorem chunk_of_pieces (w1 : FVec Ideal S10x10 .f32) (b1 : FVec Ideal S1x10 .f32) (w2 : FVec Ideal S10x5 .f32)
    (b2 : FVec Ideal S1x5 .f32) (xc : FVec Ideal S10x32768 .f32) (x0 : S10x262144.Idx → EReal) (P : SP.Idx → EReal) (off : ℕ)
    (h1 : ∀ k j : Fin 10, w1 (ix2 k j) = pAt P k.val j.val)
    (h2 : ∀ (u : Fin 1) (j : Fin 10), b1 (ix2 u j) = pAt P 16 j.val)
    (h3 : ∀ (j : Fin 10) (o : Fin 5), w2 (ix2 j o) = pAt P (24 + j.val) o.val)
    (h4 : ∀ (u : Fin 1) (o : Fin 5), b2 (ix2 u o) = pAt P 152 o.val)
    (hx : ∀ (k : Fin 10) (q : Fin 32768), xc (ix2 k q) = tAt x0 k.val (off + q.val)) (o : Fin 5) (q : Fin 32768) :
    k0_pay1 (F := Ideal) w1 b1 w2 b2 ones xc (ix2 o q) = blkOut x0 P (0 + 1 * o.val) (off + 1 * q.val) := by
  rw [chunk_apply, Nat.zero_add, Nat.one_mul, Nat.one_mul]
  unfold blkOut
  simp only [h1, h2, h3, h4, hx]

section Pieces
variable (x0 : Vec Ideal S10x262144 .f32) (x1 : Vec Ideal S160x128 .f32) (o : Fin 5) (q : Fin 32768)

theorem piece0 : k0_pay2 (F := Ideal) (View.ld x1 r0_0) (View.ld x1 r0_1) (View.ld x1 r0_2) (View.ld x1 r0_3) (View.ld x0 r0_4) (ix2 o q)
    = blkOut x0 x1 (0 + 1 * o.val) (0 + 1 * q.val) :=
  (congrFun (pay2_eq _ _ _ _ _) (ix2 o q)).trans
    (chunk_of_pieces (View.ld x1 r0_0) (View.ld x1 r0_1) (View.ld x1 r0_2) (View.ld x1 r0_3) (View.ld x0 r0_4) x0 x1 0
      (ld_w1 x1) (ld_b1 x1) (ld_w2 x1) (ld_b2 x1) (ld_chunk x0 0 _ (by norm_num)) o q)

theorem piece1 : k0_pay3 (F := Ideal) (View.ld x1 r0_0) (View.ld x1 r0_1) (View.ld x1 r0_2) (View.ld x1 r0_3) (View.ld x0 r0_6) (ix2 o q)
    = blkOut x0 x1 (0 + 1 * o.val) (32768 + 1 * q.val) :=
  (congrFun (pay3_eq _ _ _ _ _) (ix2 o q)).trans
    (chunk_of_pieces (View.ld x1 r0_0) (View.ld x1 r0_1) (View.ld x1 r0_2) (View.ld x1 r0_3) (View.ld x0 r0_6) x0 x1 32768
      (ld_w1 x1) (ld_b1 x1) (ld_w2 x1) (ld_b2 x1) (ld_chunk x0 32768 _ (by norm_num)) o q)

theorem piece2 : k0_pay4 (F := Ideal) (View.ld x1 r0_0) (View.ld x1 r0_1) (View.ld x1 r0_2) (View.ld x1 r0_3) (Scalar.ofBits .f32 0x3F800000#32) (View.ld x0 r0_8) (ix2 o q)
    = blkOut x0 x1 (0 + 1 * o.val) (65536 + 1 * q.val) :=
  (congrFun (pay4_eq _ _ _ _ _) (ix2 o q)).trans
    (chunk_of_pieces (View.ld x1 r0_0) (View.ld x1 r0_1) (View.ld x1 r0_2) (View.ld x1 r0_3) (View.ld x0 r0_8) x0 x1 65536
      (ld_w1 x1) (ld_b1 x1) (ld_w2 x1) (ld_b2 x1) (ld_chunk x0 65536 _ (by norm_num)) o q)

theorem piece3 : k0_pay5 (F := Ideal) (View.ld x1 r0_0) (View.ld x1 r0_1) (View.ld x1 r0_2) (View.ld x1 r0_3) (View.ld x0 r0_10) (ix2 o q)
    = blkOut x0 x1 (0 + 1 * o.val) (98304 + 1 * q.val) :=
  (congrFun (pay5_eq _ _ _ _ _) (ix2 o q)).trans
    (chunk_of_pieces (View.ld x1 r0_0) (View.ld x1 r0_1) (View.ld x1 r0_2) (View.ld x1 r0_3) (View.ld x0 r0_10) x0 x1 98304
      (ld_w1 x1) (ld_b1 x1) (ld_w2 x1) (ld_b2 x1) (ld_chunk x0 98304 _ (by norm_num)) o q)

theorem piece4 : k0_pay8 (F := Ideal) (View.ld x1 r0_2) (View.ld x1 r0_3) (k0_pay6 (F := Ideal))
      (k0_pay7 (View.ld x1 r0_0) (View.ld x1 r0_1) (View.ld x0 r0_12)) (constant S5x32768 .f32 0x00000000#32) (ix2 o q)
    = blkOut x0 x1 (0 + 1 * o.val) (131072 + 1 * q.val) :=
  (congrFun (pay8_eq _ _ _ _ _) (ix2 o q)).trans
    (chunk_of_pieces (View.ld x1 r0_0) (View.ld x1 r0_1) (View.ld x1 r0_2) (View.ld x1 r0_3) (View.ld x0 r0_12) x0 x1 131072
      (ld_w1 x1) (ld_b1 x1) (ld_w2 x1) (ld_b2 x1) (ld_chunk x0 131072 _ (by norm_num)) o q)

theorem piece5 : k0_pay9 (F := Ideal) (View.ld x1 r0_0) (View.ld x1 r0_1) (View.ld x1 r0_2) (View.ld x1 r0_3) (View.ld x0 r0_14) (ix2 o q)
    = blkOut x0 x1 (0 + 1 * o.val) (163840 + 1 * q.val) :=
  (congrFun (pay9_eq _ _ _ _ _) (ix2 o q)).trans
    (chunk_of_pieces (View.ld x1 r0_0) (View.ld x1 r0_1) (View.ld x1 r0_2) (View.ld x1 r0_3) (View.ld x0 r0_14) x0 x1 163840
      (ld_w1 x1) (ld_b1 x1) (ld_w2 x1) (ld_b2 x1) (ld_chunk x0 163840 _ (by norm_num)) o q)

theorem piece6 : k0_pay10 (F := Ideal) (View.ld x1 r0_0) (View.ld x1 r0_1) (View.ld x1 r0_2) (View.ld x1 r0_3) (View.ld x0 r0_16) (ix2 o q)
    = blkOut x0 x1 (0 + 1 * o.val) (196608 + 1 * q.val) :=
  (congrFun (pay10_eq _ _ _ _ _) (ix2 o q)).trans
    (chunk_of_pieces (View.ld x1 r0_0) (View.ld x1 r0_1) (View.ld x1 r0_2) (View.ld x1 r0_3) (View.ld x0 r0_16) x0 x1 196608
      (ld_w1 x1) (ld_b1 x1) (ld_w2 x1) (ld_b2 x1) (ld_chunk x0 196608 _ (by norm_num)) o q)

theorem piece7 : k0_pay1 (F := Ideal) (View.ld x1 r0_0) (View.ld x1 r0_1) (View.ld x1 r0_2) (View.ld x1 r0_3) (k0_pay11 (F := Ideal))
      (k0_pay12 (View.ld x0 r0_18)) (ix2 o q)
    = blkOut x0 x1 (0 + 1 * o.val) (229376 + 1 * q.val) :=
  (congrFun (pay1_eq _ _ _ _ _) (ix2 o q)).trans
    (chunk_of_pieces (View.ld x1 r0_0) (View.ld x1 r0_1) (View.ld x1 r0_2) (View.ld x1 r0_3) (View.ld x0 r0_18) x0 x1 229376
      (ld_w1 x1) (ld_b1 x1) (ld_w2 x1) (ld_b2 x1) (ld_chunk x0 229376 _ (by norm_num)) o q)

end Pieces

/-- THE OUTPUT SLAB the eight stores leave: `Gblk` of the staged slab and the parameter buffer. -/
theorem tile_eq (x0 : Vec Ideal S10x262144 .f32) (x1 : Vec Ideal S160x128 .f32) :
    out0_2 (F := Ideal) x0 x1 = Gblk x0 x1 := by
  funext y
  unfold out0_2
  refine View.canon_apply_of_pieces (Val := Elt Ideal) (e := EltTy.f32) (Gblk x0 x1) _ ?_ y (cover0_2 _ _ _ _ _ _ _ _ y)
  intro p hp
  simp only [List.mem_cons, List.mem_nil_iff, or_false] at hp
  rcases hp with rfl | rfl | rfl | rfl | rfl | rfl | rfl | rfl
  · intro x; obtain ⟨o, q, rfl⟩ : ∃ (o : Fin 5) (q : Fin 32768), x = ix2 o q := ⟨x 0, x 1, eq_ix2 x⟩
    exact piece7 x0 x1 o q
  · intro x; obtain ⟨o, q, rfl⟩ : ∃ (o : Fin 5) (q : Fin 32768), x = ix2 o q := ⟨x 0, x 1, eq_ix2 x⟩
    exact piece6 x0 x1 o q
  · intro x; obtain ⟨o, q, rfl⟩ : ∃ (o : Fin 5) (q : Fin 32768), x = ix2 o q := ⟨x 0, x 1, eq_ix2 x⟩
    exact piece5 x0 x1 o q
  · intro x; obtain ⟨o, q, rfl⟩ : ∃ (o : Fin 5) (q : Fin 32768), x = ix2 o q := ⟨x 0, x 1, eq_ix2 x⟩
    exact piece4 x0 x1 o q
  · intro x; obtain ⟨o, q, rfl⟩ : ∃ (o : Fin 5) (q : Fin 32768), x = ix2 o q := ⟨x 0, x 1, eq_ix2 x⟩
    exact piece3 x0 x1 o q
  · intro x; obtain ⟨o, q, rfl⟩ : ∃ (o : Fin 5) (q : Fin 32768), x = ix2 o q := ⟨x 0, x 1, eq_ix2 x⟩
    exact piece2 x0 x1 o q
  · intro x; obtain ⟨o, q, rfl⟩ : ∃ (o : Fin 5) (q : Fin 32768), x = ix2 o q := ⟨x 0, x 1, eq_ix2 x⟩
    exact piece1 x0 x1 o q
  · intro x; obtain ⟨o, q, rfl⟩ : ∃ (o : Fin 5) (q : Fin 32768), x = ix2 o q := ⟨x 0, x 1, eq_ix2 x⟩
    exact piece0 x0 x1 o q

/-! ## The windows' blocks at a point -/

theorem idx_w0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem idx_w2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- The array the batch window stages is the host's transpose of the batch. -/
theorem V_head (c : Dev nD) :
    (V m c main_call0_v0 : S10x1048576.Idx → EReal)
      = transpose S10x1048576 [1, 0] (m ((c : Thread nD τ).loc main_arg0)) transposes_S1048576x10_S10x1048576_1_0 := by
  show StableHlo.after hostOps0 (fun b => m (c, b)) (Proc.devRef .tc main_call0_v0) = _
  after_results
  rfl

/-- The parameter window's block is the whole buffer at every point. -/
theorem iblk1_eq (c : Dev nD) (t : Fin cfg0.N) :
    (iblk m c 1 t : FVec Ideal S160x128 .f32) = (m ((c : Thread nD τ).loc main_arg1) : S160x128.Idx → EReal) := by
  obtain ⟨e0, e1⟩ := idx_w1 t
  funext y
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t (0 : Fin 2) * 160 + 1 * (y 0).val = (y 0).val; rw [e0]; omega
  | ⟨1, _⟩ => show win0_1.index t (1 : Fin 2) * 128 + 1 * (y 1).val = (y 1).val; rw [e1]; omega

/-- The batch window's block at point `t`: entry `(k, q)` is the batch at `(262144 t + q, k)`. -/
theorem iblk0_apply (c : Dev nD) (t : Fin cfg0.N) (k : Fin 10) (q : Fin 262144) :
    (iblk m c 0 t : FVec Ideal S10x262144 .f32) (ix2 k q)
      = xAt (m ((c : Thread nD τ).loc main_arg0)) (t.val * 262144 + q.val) k.val := by
  obtain ⟨e0, e1⟩ := idx_w0 t
  have ht : t.val < 4 := lt_of_lt_of_eq t.isLt N_0
  refine Eq.trans ?_ (xAt_ix2 (m ((c : Thread nD τ).loc main_arg0)) ⟨t.val * 262144 + q.val, by omega⟩ k)
  unfold iblk
  rw [View.read_apply]
  show V m c main_call0_v0 _ = _
  rw [V_head m c]
  refine transpose_apply [(1 : Fin 2), 0] _ _ _ (ix2 (⟨t.val * 262144 + q.val, by omega⟩ : Fin 1048576) k) (fun b => ?_)
  match b with
  | ⟨0, _⟩ => show k.val = win0_0.index t (0 : Fin 2) * 10 + 1 * k.val; rw [e0]; omega
  | ⟨1, _⟩ => show t.val * 262144 + q.val = win0_0.index t (1 : Fin 2) * 262144 + 1 * q.val; rw [e1]; omega

theorem tAt_iblk0 (c : Dev nD) (t : Fin cfg0.N) (k : Fin 10) (q : Fin 262144) :
    tAt (iblk m c 0 t) k.val q.val = xAt (m ((c : Thread nD τ).loc main_arg0)) (t.val * 262144 + q.val) k.val :=
  (tAt_ix2 (iblk m c 0 t) k q).symm.trans (iblk0_apply m c t k q)

/-! ## What a point writes back, the cover, the array -/

/-- The `[5, 1048576]` array the region fills: the transposed arrangement, transposed. -/
def YT (X : SX.Idx → EReal) (P : SP.Idx → EReal) : S5x1048576.Idx → EReal := fun i => outT X P (i 1).val (i 0).val

/-- WHAT POINT `t` WRITES BACK is block `t` of `YT` of the argument arrays. -/
theorem flushed_eq (c : Dev nD) (t : Fin cfg0.N) :
    (dats m 0 c).flushed 2 t = ((cfg0.win 2).blk t).view.read (Elt Ideal)
      (YT (m ((c : Thread nD τ).loc main_arg0)) (m ((c : Thread nD τ).loc main_arg1))) := by
  show (cfg0.win 2).cut (grid0.coords t) ((dats m 0 c).after 2 t) = _
  rw [after0_2, tile_eq]
  obtain ⟨e0, e1⟩ := idx_w2 t
  funext y
  obtain ⟨o, q, rfl⟩ : ∃ (o : Fin 5) (q : Fin 262144), y = ix2 o q := ⟨y 0, y 1, eq_ix2 y⟩
  show blkOut (iblk m c 0 t) (iblk m c 1 t) o.val q.val
    = outT (m ((c : Thread nD τ).loc main_arg0)) (m ((c : Thread nD τ).loc main_arg1))
        (win0_2.index t (1 : Fin 2) * 262144 + 1 * q.val) (win0_2.index t (0 : Fin 2) * 5 + 1 * o.val)
  rw [iblk1_eq m c t, e0, e1]
  unfold blkOut outT
  simp only [tAt_iblk0 m c t, Nat.one_mul, Nat.zero_mul, Nat.zero_add]

/-- An index of the array is in point `t`'s block iff each coordinate is in the block's range on its axis. -/
theorem mem_blk (t : Fin cfg0.N) (i : S5x1048576.Idx) :
    i ∈ ((cfg0.win 2).blk t).view.set ↔ ∀ a : Fin 2, win0_2.index t a * S5x262144.size a ≤ (i a).val
      ∧ (i a).val < win0_2.index t a * S5x262144.size a + S5x262144.size a := by
  show i ∈ ((View.whole main_call0_v1).slice (win0_2.rect t)).set ↔ _
  rw [View.set_slice_whole, Rect.mem_set_unit]
  exact Iff.rfl

/-- Every index of the `[5, 1048576]` array is in some point's block: column `b` in slab `b / 262144`. -/
theorem cover (i : S5x1048576.Idx) :
    ∃ t : Fin cfg0.N, (cfg0.win 2).flush t = true ∧ i ∈ ((cfg0.win 2).blk t).view.set := by
  have h0 : (i 0).val < 5 := (i 0).isLt
  have h1 : (i 1).val < 1048576 := (i 1).isLt
  have hN : cfg0.N = 4 := N_0
  refine ⟨⟨(i 1).val / 262144, by rw [hN]; omega⟩, flush0_2 _, ?_⟩
  rw [mem_blk]
  obtain ⟨e0, e1⟩ := idx_w2 ⟨(i 1).val / 262144, by rw [hN]; omega⟩
  intro a
  match a with
  | ⟨0, _⟩ =>
    show win0_2.index _ (0 : Fin 2) * 5 ≤ (i 0).val ∧ (i 0).val < win0_2.index _ (0 : Fin 2) * 5 + 5
    rw [e0]; omega
  | ⟨1, _⟩ =>
    show win0_2.index _ (1 : Fin 2) * 262144 ≤ (i 1).val ∧ (i 1).val < win0_2.index _ (1 : Fin 2) * 262144 + 262144
    rw [e1]; show (i 1).val / 262144 * 262144 ≤ (i 1).val ∧ (i 1).val < (i 1).val / 262144 * 262144 + 262144; omega

/-- THE `[5, 1048576]` ARRAY after the region. -/
theorem final (c : Dev nD) : (dats m 0 c).arrAt 2 cfg0.N
    = YT (m ((c : Thread nD τ).loc main_arg0)) (m ((c : Thread nD τ).loc main_arg1)) :=
  (dats m 0 c).arrAt_eq_of_cover 2 _ (fun t _ => flushed_eq m c t) cover

/-- THE RESULT after the host's closing transpose: `GT` of the arguments. -/
theorem tail_eq (c : Dev nD) :
    Pipeline.afterTail₀ cfgs (dats m) 0 (V0 m) [hostOps1] c main_v0
      = GT (m ((c : Thread nD τ).loc main_arg0)) (m ((c : Thread nD τ).loc main_arg1)) := by
  unfold Pipeline.afterTail₀
  show StableHlo.after hostOps1 _ (Proc.devRef .tc main_v0) = _
  after_results
  rw [(Pipeline.withArrays_arr spec0 launch0.win.arr_inj c _ _ 2).trans (final m c)]
  funext i
  obtain ⟨b, o, rfl⟩ : ∃ (b : Fin 1048576) (o : Fin 5), i = ix2 b o := ⟨i 0, i 1, eq_ix2 i⟩
  show transpose S1048576x5 [1, 0] (YT (m ((c : Thread nD τ).loc main_arg0)) (m ((c : Thread nD τ).loc main_arg1)))
    transposes_S5x1048576_S1048576x5_1_0 (ix2 b o) = _
  exact transpose_apply [(1 : Fin 2), 0] _ _ (ix2 b o) (ix2 o b) (fun d => by
    match d with
    | ⟨0, _⟩ => rfl
    | ⟨1, _⟩ => rfl)

/-- The run, read: the result array at `GT` of the arguments, the arguments unchanged. -/
theorem run : θ_run defs (onTc (τ := τ) (main (F := Ideal))) ⟨m, fun _ => 0, ρ⟩ fun r => ∀ c : Dev nD,
      r.2.mem ((c : Thread nD τ).loc main_v0)
        = GT (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KerValue

end
-- ==== Proof.PreFacts.lean ====
/-
  From the precondition to the zero padding of the first layer.

  The precondition is a conjunction of four all-ones tests. The third says every entry of the parameter buffer's
  rows `0 … 9`, columns `10 … 127` equals zero, the fourth the same for row `16`: a conjunction of bits is one only when
  each is, an `and`-reduction to a scalar is one only when every entry is, and the ordered-equal comparison of two
  extended reals is one only when they are equal. Entry `(k, j - 10)` of the sliced array is entry `(k, j)` of the buffer.
-/
import proofs.«110610_g2000409495619823_pallasbulk_448_19_alg».proof.Proof.Gen.Pre_finite_inputs
import proofs.«110610_g2000409495619823_pallasbulk_448_19_alg».proof.Proof.Spec
import Idealize.ShloMosaic.Lib.ReduceAll
import Idealize.ShloMosaic.Lib.Affine
import Idealize.ShloMosaic.Lib.Pipeline.Value

noncomputable section

namespace Cert.Pre_finite_inputs.PreFacts

open Cert.Pre_finite_inputs Cert.Mlp Idealize.ShloMosaic Idealize.ShloMosaic.ValueIdx

instance : Subsingleton S_.Idx := ⟨fun a b => funext fun d => d.elim0⟩

/-- The ordered-equal comparison of two extended reals answers one only when they are equal. -/
theorem eq_of_oeq {x y : EReal} (h : Ideal.cmp .oeq x y = 1#1) : x = y := by
  by_contra hne
  have h0 : Ideal.cmp .oeq x y = 0#1 := by simp [Ideal.cmp, hne]
  rw [h0] at h
  exact absurd h (by decide)

variable [Facts]

/-- Under the precondition the first layer's padding columns are zero. -/
theorem padded_of_pre (X : FVec Ideal S1048576x10 .f32) (P : FVec Ideal S160x128 .f32)
    (h : fn (F := Ideal) X P = fun _ => 1#1) : Padded P := by
  have h0 := congrFun h ValueIdx.ix0
  dsimp only [fn, fn_part1] at h0
  obtain ⟨h1, hD⟩ := IntOp.andi_eq_one.mp h0
  obtain ⟨-, hC⟩ := IntOp.andi_eq_one.mp h1
  have hC' := Host.reduce_andi_all _ _ _ _ _ hC
  have hD' := Host.reduce_andi_all _ _ _ _ _ hD
  intro j hj hj'
  refine ⟨fun k hk => ?_, ?_⟩
  · have e := eq_of_oeq (hC' (ix2 (⟨k, hk⟩ : Fin 10) (⟨j - 10, by omega⟩ : Fin 118)))
    refine (pAt_ix2 P ⟨k, by omega⟩ ⟨j, hj'⟩).symm.trans ?_
    refine Eq.trans (extractStridedSlice_apply ![0, 10] P _ (ix2 (⟨k, hk⟩ : Fin 10) (⟨j - 10, by omega⟩ : Fin 118))
      (ix2 (⟨k, by omega⟩ : Fin 160) (⟨j, hj'⟩ : Fin 128)) (fun a => ?_)).symm (e.trans Ideal.ofBits_zero_f32)
    match a with
    | ⟨0, _⟩ => show k = 0 + k; omega
    | ⟨1, _⟩ => show j = 10 + (j - 10); omega
  · have e := eq_of_oeq (hD' (ix2 (0 : Fin 1) (⟨j - 10, by omega⟩ : Fin 118)))
    refine (pAt_ix2 P ⟨16, by omega⟩ ⟨j, hj'⟩).symm.trans ?_
    refine Eq.trans (extractStridedSlice_apply ![16, 10] P _ (ix2 (0 : Fin 1) (⟨j - 10, by omega⟩ : Fin 118))
      (ix2 (⟨16, by omega⟩ : Fin 160) (⟨j, hj'⟩ : Fin 128)) (fun a => ?_)).symm (e.trans Ideal.ofBits_zero_f32)
    match a with
    | ⟨0, _⟩ => show 16 = 16 + 0; omega
    | ⟨1, _⟩ => show j = 10 + (j - 10); omega

end Cert.Pre_finite_inputs.PreFacts

end
-- ==== Proof.lean ====
/-
  A two-layer perceptron `y = max (x · W1 + b1) 0 · W2 + b2` on a batch `x : [1048576, 10]`, its parameters packed in one
  `[160, 128]` buffer `P` (`W1` in rows `0 … 9`, `b1` in row `16`, `W2` from row `24`, `b2` in row `152`), computed two ways.

  One program tiles the batch by rows and works 128 lanes wide: its hidden layer has 128 units, of which the units
  `10 … 127` are padding, and its second product sums over all of them. The other transposes the batch, tiles it by
  columns, uses exactly the ten real hidden units, contracts every product on the operands' first axes and adds each
  bias as a one-term product with a row of ones; it transposes its result back.

  Over the extended reals both results are, at batch row `b` and output `o`,
      ∑ j < 10, max (∑ k < 10, x[b,k] · P[k,j] + P[16,j]) 0 · P[24+j,o] + P[152,o]     (`Cert.Mlp.G`),
  the transposed program by commutativity of the product and `a · 1 = a` (`Cert.Mlp.GT_eq`), the 128-lane program once
  the first layer's padding columns — columns `10 … 127` of rows `0 … 9` and of row `16` — are zero, as the precondition
  says: a padding unit is then `max (0 + 0) 0 = 0` and its term `0 · P[24+j,o] = 0` (`Cert.Mlp.Gpad_eq`). No step needs
  the entries to be finite. Proof/RefValue.lean and Proof/KerValue.lean read each program's result array off its run;
  Proof/PreFacts.lean reads the zero padding off the precondition.
-/
import proofs.«110610_g2000409495619823_pallasbulk_448_19_alg».proof.Defs
import proofs.«110610_g2000409495619823_pallasbulk_448_19_alg».proof.Proof.Gen.Kernel
import proofs.«110610_g2000409495619823_pallasbulk_448_19_alg».proof.Proof.Gen.Kernel.Skeleton
import proofs.«110610_g2000409495619823_pallasbulk_448_19_alg».proof.Proof.Gen.Kernel.Launch
import proofs.«110610_g2000409495619823_pallasbulk_448_19_alg».proof.Proof.Gen.Kernel.Points
import proofs.«110610_g2000409495619823_pallasbulk_448_19_alg».proof.Proof.Gen.Kernel.Frame
import proofs.«110610_g2000409495619823_pallasbulk_448_19_alg».proof.Proof.Gen.KernelIdeal
import proofs.«110610_g2000409495619823_pallasbulk_448_19_alg».proof.Proof.Gen.KernelIdeal.Skeleton
import proofs.«110610_g2000409495619823_pallasbulk_448_19_alg».proof.Proof.Gen.KernelIdeal.Launch
import proofs.«110610_g2000409495619823_pallasbulk_448_19_alg».proof.Proof.Gen.KernelIdeal.Points
import proofs.«110610_g2000409495619823_pallasbulk_448_19_alg».proof.Proof.Gen.KernelIdeal.Frame
import proofs.«110610_g2000409495619823_pallasbulk_448_19_alg».proof.Proof.Gen.ReferenceIdeal
import proofs.«110610_g2000409495619823_pallasbulk_448_19_alg».proof.Proof.Gen.ReferenceIdeal.Skeleton
import proofs.«110610_g2000409495619823_pallasbulk_448_19_alg».proof.Proof.Gen.ReferenceIdeal.Launch
import proofs.«110610_g2000409495619823_pallasbulk_448_19_alg».proof.Proof.Gen.ReferenceIdeal.Points
import proofs.«110610_g2000409495619823_pallasbulk_448_19_alg».proof.Proof.Gen.ReferenceIdeal.Frame
import proofs.«110610_g2000409495619823_pallasbulk_448_19_alg».proof.Proof.Gen.ReferenceIdeal.Value
import proofs.«110610_g2000409495619823_pallasbulk_448_19_alg».proof.Proof.Gen.Pre_finite_inputs
import proofs.«110610_g2000409495619823_pallasbulk_448_19_alg».proof.Proof.Spec
import proofs.«110610_g2000409495619823_pallasbulk_448_19_alg».proof.Proof.RefValue
import proofs.«110610_g2000409495619823_pallasbulk_448_19_alg».proof.Proof.KerValue
import proofs.«110610_g2000409495619823_pallasbulk_448_19_alg».proof.Proof.PreFacts
import Idealize.ShloMosaic.Adequacy
import Idealize.ShloMosaic.Init

noncomputable section

namespace Cert.Proof

open Idealize.ShloMosaic Idealize.SL.Sem

/-- Each program runs to the end with its argument arrays unchanged: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote nothing. -/
theorem preserves : Cert.preserves_Kernel_KernelIdeal := trivial

/-- From memories that agree on the arguments both programs end with the result array `Cert.Mlp.G` of the arguments:
    the transposed program's `GT` is `G` outright, the 128-lane program's `Gpad` is `G` under the zero padding the
    precondition states. -/
theorem algebraic : Cert.algebraic_KernelIdeal_ReferenceIdeal := by
  intro m ρ m' ρ' hpre hagree
  refine ⟨fun c => Cert.Mlp.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.Mlp.GT_eq _ _), (h c).2⟩) (Cert.KernelIdeal.KerValue.run m ρ)
  · refine (θ_run Cert.ReferenceIdeal.defs _ _).mono (fun r h c => ⟨(h c).1.trans ?_, (h c).2⟩)
      (Cert.ReferenceIdeal.RefValue.run m' ρ')
    rw [(hagree c).1, (hagree c).2]
    exact Cert.Mlp.Gpad_eq (Cert.Pre_finite_inputs.PreFacts.padded_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
